-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S8192x1 : Shape := ⟨2, ![8192, 1]⟩
abbrev S16x1x8192 : Shape := ⟨3, ![16, 1, 8192]⟩
abbrev S512x3 : Shape := ⟨2, ![512, 3]⟩
abbrev S4096x3 : Shape := ⟨2, ![4096, 3]⟩
abbrev S512x1 : Shape := ⟨2, ![512, 1]⟩
abbrev S1x1x4096 : Shape := ⟨3, ![1, 1, 4096]⟩
abbrev S512 : Shape := ⟨1, ![512]⟩
abbrev S4096 : Shape := ⟨1, ![4096]⟩
abbrev S1x4096 : Shape := ⟨2, ![1, 4096]⟩
abbrev S512x4096 : Shape := ⟨2, ![512, 4096]⟩
abbrev S8192 : Shape := ⟨1, ![8192]⟩
abbrev S_ : Shape := ⟨0, ![]⟩
abbrev S1x8192 : Shape := ⟨2, ![1, 8192]⟩

abbrev nBuf : Space → Nat
  | .hbm => 21
  | .vmem => 8
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1, .f32⟩
  | .hbm, ⟨3, _⟩ => ⟨S16x1x8192, .f32⟩
  | .hbm, ⟨4, _⟩ => ⟨S8192, .f32⟩
  | .hbm, ⟨5, _⟩ => ⟨S_, .f32⟩
  | .hbm, ⟨6, _⟩ => ⟨S1x8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S4096x3, .f32⟩
  | .local _ .vmem, ⟨3, _⟩ => ⟨S4096x3, .f32⟩
  | .local _ .vmem, ⟨4, _⟩ => ⟨S512x1, .f32⟩
  | .local _ .vmem, ⟨5, _⟩ => ⟨S512x1, .f32⟩
  | .local _ .vmem, ⟨6, _⟩ => ⟨S1x1x4096, .f32⟩
  | .local _ .vmem, ⟨7, _⟩ => ⟨S1x1x4096, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x1_S512x1_0_0 : ∀ a, (![0, 0] : Fin 2 → Nat) a + S512x1.size a ≤ S512x1.size a
  h_S512x1 : 0 < S512x1.numel
  inb_S512x3_S512x3_0_0 : ∀ a, (![0, 0] : Fin 2 → Nat) a + S512x3.size a ≤ S512x3.size a
  h_S512x3 : 0 < S512x3.numel
  inb_S4096x3_S4096x3_0_0 : ∀ a, (![0, 0] : Fin 2 → Nat) a + S4096x3.size a ≤ S4096x3.size a
  h_S4096x3 : 0 < S4096x3.numel
  reduces_S512x3_S512 : S512x3.Reduces [1] S512
  shapeCasts_S512_S512x1 : S512.ShapeCasts S512x1
  reduces_S4096x3_S4096 : S4096x3.Reduces [1] S4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  shapeCasts_S512x1_S512x1 : S512x1.ShapeCasts S512x1
  reduces_S512x4096_S4096 : S512x4096.Reduces [0] S4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S8192x1_S8192 : S8192x1.ShapeCasts S8192
  reducesTo_S16x1x8192_S1x8192_d0 : S16x1x8192.ReducesTo [0] S1x8192
  h_S_ : 0 < S_.numel
  shapeCasts_S1x8192_S8192 : S1x8192.ShapeCasts S8192
  bcast_S_S8192 : S_.BroadcastsInDim S8192 (![] : Fin 0 → Fin S8192.rank)
  reducesTo_S8192_S_d0 : S8192.ReducesTo [0] S_
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S8192x3.size a
  hwx0_1 : ∀ i : grid0.Coords, EltTy.bits .f32 = 32 ∨ (Rect.block (s := S8192x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x8192.size a
  hwx0_3 : ∀ i : grid0.Coords, EltTy.bits .f32 = 32 ∨ (Rect.block (s := S16x1x8192) S1x1x4096.size (cc0_transform_3 i) (hinb0_3 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S3x8192 : Shape := ⟨2, ![3, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x3, .f32⟩
  | .hbm, ⟨6, _⟩ => ⟨S_, .f32⟩
  | .hbm, ⟨7, _⟩ => ⟨S8192, .f32⟩
  | .hbm, ⟨8, _⟩ => ⟨S3x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  transposes_S8192x3_S3x8192_1_0 : S8192x3.Transposes [1, 0] S3x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Pieces.lean ====
/-
  What one run of the kernel body leaves in the two output buffers, as arithmetic of what it loaded.

  At the first step of a row block's sweep the body sets the running row minimum to `+∞`, then folds this block's
  row minima into it: the buffer ends at the fold of the table's row minima into `+∞`. At the last step it folds
  this block's row minima into what the step before left, then replaces the result by its root. Either way the
  column minima of the table go to the other buffer. Each buffer is written whole by every store, so what it holds
  at the end is the last store's value, and a load after a store reads that store's value.
-/
import proofs.«118879_j2370821948077_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step, running row minimum: this block's row minima folded into `+∞`. -/
theorem out_A_2 (c : Dev nD) (i : grid0.Coords) (arg2 : Memref sig .tc .vmem S512x3 .f32) (harg2 : arg2.IsWhole) (arg3 : Memref sig .tc .vmem S4096x3 .f32) (harg3 : arg3.IsWhole) (arg4 : Memref sig .tc .vmem S512x1 .f32) (harg4 : arg4.IsWhole) (arg5 : Memref sig .tc .vmem S1x1x4096 .f32) (harg5 : arg5.IsWhole) (hc0 : cond0_0 i) (hc1 : ¬cond0_1 i)
    (x0 : Vec F S512x3 .f32) (x1 : Vec F S4096x3 .f32) :
    out0_A_2 c i arg2 harg2 arg3 harg3 arg4 harg4 arg5 harg5 hc0 hc1 x0 x1 = k0_pay4 x0 x1 (k0_pay2 (F := F)) := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_cons_unit_zero (S := S512x1) hz2, View.readCov_unit_zero (S := S512x1) _ hz2]
  simp only [View.readAt_eq_ld, harg2.read_unread, harg3.read_unread, View.ld_unit_zero (S := S512x3) hz2,
    View.ld_unit_zero (S := S4096x3) hz2]

/-- First step, column minima: those of this block's table. -/
theorem out_A_3 (c : Dev nD) (i : grid0.Coords) (arg2 : Memref sig .tc .vmem S512x3 .f32) (harg2 : arg2.IsWhole) (arg3 : Memref sig .tc .vmem S4096x3 .f32) (harg3 : arg3.IsWhole) (arg4 : Memref sig .tc .vmem S512x1 .f32) (harg4 : arg4.IsWhole) (arg5 : Memref sig .tc .vmem S1x1x4096 .f32) (harg5 : arg5.IsWhole) (hc0 : cond0_0 i) (hc1 : ¬cond0_1 i)
    (x0 : Vec F S512x3 .f32) (x1 : Vec F S4096x3 .f32) :
    out0_A_3 c i arg2 harg2 arg3 harg3 arg4 harg4 arg5 harg5 hc0 hc1 x0 x1 = k0_pay5 x0 x1 := by
  unfold out0_A_3
  rw [View.read_writes_eq_canon _ _ _ (cover0_A_3 c i arg2 harg2 arg3 harg3 arg4 harg4 arg5 harg5 hc0 hc1 x0 x1)]
  unfold kernelRun0_A
  dsimp only
  sl_unfold_words
  rw [View.canon_unit_zero (S := S1x1x4096) hz3]
  simp only [View.readAt_eq_ld, harg2.read_unread, harg3.read_unread, View.ld_unit_zero (S := S512x3) hz2,
    View.ld_unit_zero (S := S4096x3) hz2]

/-- Last step, running row minimum: this block's row minima folded into what the step before left, then the root. -/
theorem out_B_2 (c : Dev nD) (i : grid0.Coords) (arg2 : Memref sig .tc .vmem S512x3 .f32) (harg2 : arg2.IsWhole) (arg3 : Memref sig .tc .vmem S4096x3 .f32) (harg3 : arg3.IsWhole) (arg4 : Memref sig .tc .vmem S512x1 .f32) (harg4 : arg4.IsWhole) (arg5 : Memref sig .tc .vmem S1x1x4096 .f32) (harg5 : arg5.IsWhole) (hc0 : ¬cond0_0 i) (hc1 : cond0_1 i)
    (x0 : Vec F S512x3 .f32) (x1 : Vec F S4096x3 .f32) (xo2 : Vec F S512x1 .f32) :
    out0_B_2 c i arg2 harg2 arg3 harg3 arg4 harg4 arg5 harg5 hc0 hc1 x0 x1 xo2 = k0_pay1 (k0_pay4 x0 x1 xo2) := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  rw [View.canon_cons_unit_zero (S := S512x1) hz2, View.readCov_unit_zero (S := S512x1) _ hz2]
  simp only [View.readAt_eq_ld, harg2.read_unread, harg3.read_unread, harg4.read_unread, View.ld_unit_zero (S := S512x3) hz2,
    View.ld_unit_zero (S := S4096x3) hz2, View.ld_unit_zero (S := S512x1) hz2]

/-- Last step, column minima: those of this block's table. -/
theorem out_B_3 (c : Dev nD) (i : grid0.Coords) (arg2 : Memref sig .tc .vmem S512x3 .f32) (harg2 : arg2.IsWhole) (arg3 : Memref sig .tc .vmem S4096x3 .f32) (harg3 : arg3.IsWhole) (arg4 : Memref sig .tc .vmem S512x1 .f32) (harg4 : arg4.IsWhole) (arg5 : Memref sig .tc .vmem S1x1x4096 .f32) (harg5 : arg5.IsWhole) (hc0 : ¬cond0_0 i) (hc1 : cond0_1 i)
    (x0 : Vec F S512x3 .f32) (x1 : Vec F S4096x3 .f32) (xo2 : Vec F S512x1 .f32) :
    out0_B_3 c i arg2 harg2 arg3 harg3 arg4 harg4 arg5 harg5 hc0 hc1 x0 x1 xo2 = k0_pay5 x0 x1 := by
  unfold out0_B_3
  rw [View.read_writes_eq_canon _ _ _ (cover0_B_3 c i arg2 harg2 arg3 harg3 arg4 harg4 arg5 harg5 hc0 hc1 x0 x1 xo2)]
  unfold kernelRun0_B
  dsimp only
  sl_unfold_words
  rw [View.canon_unit_zero (S := S1x1x4096) hz3]
  simp only [View.readAt_eq_ld, harg2.read_unread, harg3.read_unread, View.ld_unit_zero (S := S512x3) hz2,
    View.ld_unit_zero (S := S4096x3) hz2]

end Cert.KernelIdeal.Pieces

end
-- ==== Proof.Spec.lean ====
/-
  The Chamfer distance between two clouds of 8192 points in three dimensions, over the extended reals.

  For points `a` of the first cloud and `b` of the second, `dist2 a b = max (|a|² + |b|² - 2·⟨a, b⟩) 0` is their
  squared distance, clamped at zero. One program takes, for each point, the minimum over the other cloud of the
  ROOT of `dist2` (`rowR`, `colR`). The other takes the minimum of `dist2` itself — over the second cloud in two
  halves, folded into a running minimum that starts at `+∞`; over the first cloud in sixteen blocks of 512, the
  sixteen partial minima then folded together and clamped at zero once more — and the root of that last
  (`rowK`, `colK`). The two agree: the root is monotone and fixes `+∞`, so it commutes with a minimum; a minimum
  over the whole cloud is the minimum of the minima over the parts of a partition; and a minimum of numbers that
  are `≥ 0` is `≥ 0`, so clamping it changes nothing. No entry needs to be finite for any of this.
-/
import Idealize.ShloMosaic.PureOps.Ideal.Laws
import Idealize.ShloMosaic.Lib.ValueIdx

noncomputable section

namespace Cert.Chamfer

open Idealize.ShloMosaic

/-- The float literals the two programs share, as the extended reals they denote: `0`, `2` and `+∞`. -/
abbrev zero : EReal := Ideal.ofBits .f32 0x00000000#32
abbrev two : EReal := Ideal.ofBits .f32 0x40000000#32
abbrev inf : EReal := Ideal.ofBits .f32 0x7F800000#32

theorem zero_eq : zero = 0 := Ideal.ofBits_zero_f32

theorem inf_eq : inf = ⊤ := by simp [Ideal.ofBits, Ideal.ieee]

/-! ## The minimum of a finite family, folded from `+∞` -/

/-- The minimum of a finite family of extended reals, as a fold of `min` from `+∞` (so an empty family has minimum `+∞`). -/
def minOver {ι : Type} [Fintype ι] (f : ι → EReal) : EReal := (Finset.univ : Finset ι).fold min inf f

/-- Its universal property: a lower bound of the family is a lower bound of every member. -/
theorem le_minOver {ι : Type} [Fintype ι] (f : ι → EReal) (c : EReal) : c ≤ minOver f ↔ ∀ i, c ≤ f i := by
  unfold minOver
  rw [Finset.le_fold_min, inf_eq]
  simp

/-- A monotone map that fixes `+∞` commutes with the minimum of a family. -/
theorem map_minOver {ι : Type} [Fintype ι] (g : EReal → EReal) (hg : Monotone g) (htop : g inf = inf) (f : ι → EReal) :
    g (minOver f) = minOver fun i => g (f i) := by
  unfold minOver
  have h := Finset.fold_hom (op := min) (op' := min) (m := g) (s := (Finset.univ : Finset ι)) (b := inf) (f := f)
    (fun x y => hg.map_min)
  rw [htop] at h
  exact h.symm

/-! ## The square root on the extended reals -/

/-- The square root (`⊥` below zero, `+∞` at `+∞`) is monotone. -/
theorem sqrt_mono : Monotone Ideal.sqrt := by
  intro a b hab
  induction a using EReal.rec with
  | bot => rw [Ideal.sqrt_bot]; exact bot_le
  | top =>
    have hb : b = ⊤ := top_le_iff.mp hab
    subst hb
    exact le_rfl
  | coe r =>
    induction b using EReal.rec with
    | bot => exact absurd hab (by simp)
    | top => rw [Ideal.sqrt_top]; exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

theorem sqrt_inf : Ideal.sqrt inf = inf := by rw [inf_eq]; rfl

/-! ## The clamped squared distance -/

/-- `max (|a|² + |b|² - 2·⟨a, b⟩) 0` of two points with three coordinates. -/
def dist2 (a b : Fin 3 → EReal) : EReal :=
  max ((∑ k, a k * a k) + (∑ k, b k * b k) - two * ∑ k, a k * b k) zero

theorem dist2_nonneg (a b : Fin 3 → EReal) : zero ≤ dist2 a b := le_max_right _ _

/-- Point `p` of an array of points with three coordinates each. -/
abbrev pt {a : ℕ} (x : (⟨2, ![a, 3]⟩ : Shape).Idx → EReal) (p : Fin a) : Fin 3 → EReal := fun k => x (ValueIdx.ix2 p k)

/-! ## The two partitions of a cloud's 8192 indices -/

/-- Point `p` of block `i`, of sixteen blocks of 512. -/
def rowIx (i : Fin 16) (p : Fin 512) : Fin 8192 := ⟨i.val * 512 + p.val, by have := i.isLt; have := p.isLt; omega⟩
/-- Point `q` of half `j`, of two halves of 4096. -/
def colIx (j : Fin 2) (q : Fin 4096) : Fin 8192 := ⟨j.val * 4096 + q.val, by have := j.isLt; have := q.isLt; omega⟩

theorem forall_rowIx {P : Fin 8192 → Prop} : (∀ n, P n) ↔ ∀ i p, P (rowIx i p) :=
  ⟨fun h _ _ => h _, fun h n => by
    have hn := n.isLt
    have e : rowIx ⟨n.val / 512, by omega⟩ ⟨n.val % 512, by omega⟩ = n :=
      Fin.ext (by show n.val / 512 * 512 + n.val % 512 = n.val; omega)
    exact e ▸ h _ _⟩

theorem forall_colIx {P : Fin 8192 → Prop} : (∀ n, P n) ↔ ∀ j q, P (colIx j q) :=
  ⟨fun h _ _ => h _, fun h n => by
    have hn := n.isLt
    have e : colIx ⟨n.val / 4096, by omega⟩ ⟨n.val % 4096, by omega⟩ = n :=
      Fin.ext (by show n.val / 4096 * 4096 + n.val % 4096 = n.val; omega)
    exact e ▸ h _ _⟩

/-! ## Nearest neighbours, two ways -/

variable (X Y : Fin 8192 → Fin 3 → EReal)

/-- The least squared distance from point `n` of the first cloud to half `j` of the second. -/
def rowPart (n : Fin 8192) (j : Fin 2) : EReal := minOver fun q : Fin 4096 => dist2 (X n) (Y (colIx j q))

/-- The distance from point `n` to its nearest neighbour, as a running minimum over the two halves from `+∞`, then the root. -/
def rowK (n : Fin 8192) : EReal := Ideal.sqrt (min (min inf (rowPart X Y n 0)) (rowPart X Y n 1))

/-- The same as the minimum over the whole second cloud of the distances. -/
def rowR (n : Fin 8192) : EReal := minOver fun m : Fin 8192 => Ideal.sqrt (dist2 (X n) (Y m))

theorem rowK_eq (n : Fin 8192) : rowK X Y n = rowR X Y n := by
  unfold rowK rowR
  rw [← map_minOver Ideal.sqrt sqrt_mono sqrt_inf]
  congr 1
  refine eq_of_forall_le_iff fun c => ?_
  simp only [le_min_iff, rowPart, le_minOver, inf_eq, le_top, true_and]
  constructor
  · rintro ⟨h0, h1⟩
    refine (forall_colIx (P := fun m => c ≤ dist2 (X n) (Y m))).mpr fun j q => ?_
    match j with
    | ⟨0, _⟩ => exact h0 q
    | ⟨1, _⟩ => exact h1 q
  · intro h
    exact ⟨fun q => h _, fun q => h _⟩

/-- The least squared distance from block `i` of the first cloud to point `m` of the second. -/
def colPart (i : Fin 16) (m : Fin 8192) : EReal := minOver fun p : Fin 512 => dist2 (X (rowIx i p)) (Y m)

/-- The distance from point `m` of the second cloud to its nearest neighbour: the sixteen partial minima folded, clamped, rooted. -/
def colK (m : Fin 8192) : EReal := Ideal.sqrt (max (minOver fun i : Fin 16 => colPart X Y i m) zero)

/-- The same as the minimum over the whole first cloud of the distances. -/
def colR (m : Fin 8192) : EReal := minOver fun n : Fin 8192 => Ideal.sqrt (dist2 (X n) (Y m))

theorem colK_eq (m : Fin 8192) : colK X Y m = colR X Y m := by
  unfold colK colR
  rw [← map_minOver Ideal.sqrt sqrt_mono sqrt_inf]
  congr 1
  have h0 : zero ≤ minOver fun i : Fin 16 => colPart X Y i m := by
    rw [le_minOver]; intro i; unfold colPart; rw [le_minOver]; intro p; exact dist2_nonneg _ _
  rw [max_eq_left h0]
  refine eq_of_forall_le_iff fun c => ?_
  simp only [colPart, le_minOver]
  exact (forall_rowIx (P := fun n => c ≤ dist2 (X n) (Y m))).symm

end Cert.Chamfer

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.Payload.lean ====
/-
  The kernel body's arithmetic, read one entry at a time over the extended reals.

  On a block `x` of 512 points of the first cloud and a block `y` of 4096 points of the second, the body forms the
  512 × 4096 table of clamped squared distances — entry `(p, q)` is `dist2` of point `p` of `x` and point `q` of `y`:
  the row sums of squares, broadcast along rows and columns, minus twice the matrix product `x · yᵀ`, clamped at zero —
  and reduces it both ways: along each row (the minimum over `q`, folded into a running minimum) and down each
  column (the minimum over `p`). The last step of a row's sweep takes the root of the running minimum.
-/
import proofs.«118879_j2370821948077_2_alg».proof.Proof.Gen.KernelIdeal.Skeleton
import proofs.«118879_j2370821948077_2_alg».proof.Proof.Spec
import proofs.«118879_j2370821948077_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Chamfer Cert.LibColumn

/-! ## Reductions along one axis of a matrix, read at an entry -/

/-- The sum along each row of an `a × 3` matrix, at row `p`: the sum of the row's three entries. -/
theorem sumLanes_apply {a : ℕ} (v : FVec Ideal ⟨2, ![a, 3]⟩ .f32) (h : (⟨2, ![a, 3]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin 3, v (ix2 p k) :=
  (Ideal.multiReduction_add_single v 0x00000000#32 h hφ hacc (ix1 p)).trans
    (Finset.sum_congr rfl fun k _ => congrArg v (funext fun d => Fin.ext (by
      match d with
      | ⟨0, _⟩ => rfl
      | ⟨1, _⟩ => rfl)))

/-- The minimum along each row of an `a × b` matrix, folded from `+∞`, at row `p`: the minimum of the row's entries. -/
theorem minLanes_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p) = minOver fun q : Fin b => v (ix2 p q) := by
  refine (multiReduction_minimumf_eq_fold v 0x7F800000#32 h hφ hacc (ix1 p)).trans ?_
  refine (h.fold_filter_drop_single FloatOps.minimumf (FloatOps.ofBits .f32 0x7F800000#32) v (ix1 p)).trans ?_
  have e : (v ∘ h.lift (ix1 p)) = fun q : Fin b => v (ix2 p q) := funext fun q => congrArg v (funext fun d => Fin.ext (by
    match d with
    | ⟨0, _⟩ => rfl
    | ⟨1, _⟩ => rfl))
  rw [e]
  rfl

/-- The minimum down each column of an `a × b` matrix, folded from `+∞`, at column `q`: the minimum of the column's entries. -/
theorem minRows_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q) = minOver fun p : Fin a => v (ix2 p q) := by
  refine (multiReduction_minimumf_eq_fold v 0x7F800000#32 h hφ hacc (ix1 q)).trans ?_
  refine (h.fold_filter_drop_single FloatOps.minimumf (FloatOps.ofBits .f32 0x7F800000#32) v (ix1 q)).trans ?_
  have e : (v ∘ h.lift (ix1 q)) = fun p : Fin a => v (ix2 p q) := funext fun p => congrArg v (funext fun d => Fin.ext (by
    match d with
    | ⟨0, _⟩ => rfl
    | ⟨1, _⟩ => rfl))
  rw [e]
  rfl

/-! ## The matrix product `x · yᵀ` at an entry -/

/-- The product's dimensions: both operands are contracted along their second axis. -/
abbrev D := dot_S512x3_S4096x3_S512x4096_1_1_0_0_n_n

theorem lhs0 (i : S512x4096.Idx) (k : D.contr.Idx) : (D.lhsIdx i k 0).val = (i 0).val := by
  unfold DotDims.lhsIdx
  rw [dif_neg (show ¬(0 : Fin S512x3.rank) ∈ D.lhsBatch by decide), dif_pos (show (0 : Fin S512x3.rank) ∈ D.lhsNonContracting by decide)]
  rfl
theorem lhs1 (i : S512x4096.Idx) (k : D.contr.Idx) : (D.lhsIdx i k 1).val = (k ⟨0, by decide⟩).val :=
  D.lhsIdx_val_of_single rfl i k
theorem rhs0 (i : S512x4096.Idx) (k : D.contr.Idx) : (D.rhsIdx i k 0).val = (i 1).val := by
  unfold DotDims.rhsIdx
  rw [dif_neg (show ¬(0 : Fin S4096x3.rank) ∈ D.rhsBatch by decide), dif_pos (show (0 : Fin S4096x3.rank) ∈ D.rhsNonContracting by decide)]
  rfl
theorem rhs1 (i : S512x4096.Idx) (k : D.contr.Idx) : (D.rhsIdx i k 1).val = (k ⟨0, by decide⟩).val :=
  D.rhsIdx_val_of_single rfl i k

/-- Entry `(p, q)` of `x · yᵀ`, accumulated into zero, is the inner product of point `p` of `x` and point `q` of `y`. -/
theorem xy_apply (x0 : FVec Ideal S512x3 .f32) (x1 : FVec Ideal S4096x3 .f32) (p : Fin 512) (q : Fin 4096) :
    matmul D (some .fp32) x0 x1 (constant (F := Ideal) S512x4096 .f32 0x00000000#32) (ix2 p q)
      = ∑ k : Fin 3, x0 (ix2 p k) * x1 (ix2 q k) := by
  simp only [matmul]
  rw [Ideal.matmul_constant_zero_apply, ← Equiv.sum_comp (contrEquiv1 D 3 rfl rfl).symm]
  refine Finset.sum_congr rfl fun k _ => ?_
  have hk := contrEquiv1_symm_val D 3 rfl rfl k
  have el : D.lhsIdx (ix2 p q) ((contrEquiv1 D 3 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 3 rfl rfl).symm k) = ix2 q k := funext fun a => Fin.ext (by
    match a with
    | ⟨0, _⟩ => exact rhs0 _ _
    | ⟨1, _⟩ => exact (rhs1 _ _).trans hk)
  rw [el, er]

/-! ## The table of clamped squared distances, and its two reductions -/

/-- Row sums broadcast along rows, plus column sums broadcast down columns, minus twice a table, clamped at zero: entry `(p, q)`. -/
theorem clamp_apply (sx : FVec Ideal S512 .f32) (sy : FVec Ideal S4096 .f32) (xy : FVec Ideal S512x4096 .f32) (p : Fin 512) (q : Fin 4096) :
    maximumf (subf (addf (broadcastTo S512x4096 (shapeCast S512x1 sx shapeCasts_S512_S512x1) broadcasts_S512x1_S512x4096)
                         (broadcastTo S512x4096 (shapeCast S1x4096 sy shapeCasts_S4096_S1x4096) broadcasts_S1x4096_S512x4096))
                   (mulf (broadcast S512x4096 (Scalar.ofBits (F := Ideal) .f32 0x40000000#32)) xy))
             (broadcast S512x4096 (Scalar.ofBits (F := Ideal) .f32 0x00000000#32)) (ix2 p q)
      = max (sx (ix1 p) + sy (ix1 q) - two * xy (ix2 p q)) zero := by
  show max (broadcastTo S512x4096 (shapeCast S512x1 sx shapeCasts_S512_S512x1) broadcasts_S512x1_S512x4096 (ix2 p q)
      + broadcastTo S512x4096 (shapeCast S1x4096 sy shapeCasts_S4096_S1x4096) broadcasts_S1x4096_S512x4096 (ix2 p q)
      - two * xy (ix2 p q)) zero = _
  rw [broadcastTo_a1_ab_apply, shapeCast_a_a1_apply, broadcastTo_1b_ab_apply, shapeCast_a_1a_apply]

/-- Entry `(p, q)` of the table is the clamped squared distance of point `p` of `x` and point `q` of `y`. -/
theorem pay3_apply (x0 : Vec Ideal S512x3 .f32) (x1 : Vec Ideal S4096x3 .f32) (p : Fin 512) (q : Fin 4096) :
    k0_pay3 (F := Ideal) x0 x1 (ix2 p q) = dist2 (pt x0 p) (pt x1 q) := by
  have e1 := sumLanes_apply (mulf (F := Ideal) x0 x0) reduces_S512x3_S512 (.inl rfl) rfl p
  have e2 := sumLanes_apply (mulf (F := Ideal) x1 x1) reduces_S4096x3_S4096 (.inl rfl) rfl q
  have e3 := xy_apply x0 x1 p q
  unfold k0_pay3
  refine (clamp_apply _ _ _ p q).trans ?_
  rw [e1, e2, e3]
  rfl

/-- The running minimum after a block: the minimum of what it held and the row's minimum over the block. -/
theorem pay4_apply (x0 : Vec Ideal S512x3 .f32) (x1 : Vec Ideal S4096x3 .f32) (acc : Vec Ideal S512x1 .f32) (p : Fin 512) (u : Fin 1) :
    k0_pay4 (F := Ideal) x0 x1 acc (ix2 p u) = min (acc (ix2 p u)) (minOver fun q : Fin 4096 => dist2 (pt x0 p) (pt x1 q)) := by
  have e := minLanes_apply (k0_pay3 (F := Ideal) x0 x1) reduces_S512x4096_S512 (.inl rfl) rfl p
  unfold k0_pay4
  refine (minimumf_apply _ _ _).trans ?_
  rw [shapeCast_self, shapeCast_a_a1_apply, e]
  exact congrArg (min (acc (ix2 p u))) (congrArg minOver (funext fun q => pay3_apply x0 x1 p q))

/-- The column minimum over a block: at column `q`, the minimum over the block's points. -/
theorem pay5_apply (x0 : Vec Ideal S512x3 .f32) (x1 : Vec Ideal S4096x3 .f32) (u v : Fin 1) (q : Fin 4096) :
    k0_pay5 (F := Ideal) x0 x1 (ix3 u v q) = minOver fun p : Fin 512 => dist2 (pt x0 p) (pt x1 q) := by
  have e := minRows_apply (k0_pay3 (F := Ideal) x0 x1) reduces_S512x4096_S4096 (.inl rfl) rfl q
  unfold k0_pay5
  rw [shapeCast_ab_1ab_apply, shapeCast_a_1a_apply, e]
  exact congrArg minOver (funext fun p => pay3_apply x0 x1 p q)

/-- The last step: the root, entry by entry. -/
theorem pay1_apply (v : Vec Ideal S512x1 .f32) (i : S512x1.Idx) : k0_pay1 (F := Ideal) v i = Ideal.sqrt (v i) := by
  unfold k0_pay1
  rw [shapeCast_self]
  rfl

/-- The first step: the running minimum starts at `+∞`. -/
theorem pay2_apply (i : S512x1.Idx) : k0_pay2 (F := Ideal) i = inf := rfl

/-- A row block's sweep over the two halves of the second cloud: the running minimum starts at `+∞`, takes in the row's
    minimum over the first half, then over the second, and the root is taken. -/
theorem sweep_apply (a0 a1 : Vec Ideal S512x3 .f32) (b0 b1 : Vec Ideal S4096x3 .f32) (p : Fin 512) (u : Fin 1) :
    k0_pay1 (F := Ideal) (k0_pay4 a1 b1 (k0_pay4 a0 b0 (k0_pay2 (F := Ideal)))) (ix2 p u)
      = Ideal.sqrt (min (min inf (minOver fun q : Fin 4096 => dist2 (pt a0 p) (pt b0 q)))
          (minOver fun q : Fin 4096 => dist2 (pt a1 p) (pt b1 q))) := by
  rw [pay1_apply, pay4_apply, pay4_apply, pay2_apply]

end Cert.KernelIdeal.Pay

end
-- ==== Proof.Blocks.lean ====
/-
  The kernel's two result arrays, as functions of the two clouds.

  The grid has 16 × 2 points, the second coordinate moving fastest: point `t` works on block `t / 2` (512 points) of
  the first cloud and half `t % 2` (4096 points) of the second. The row buffer is carried from an even point to the
  odd point after it and written back there, to rows `512·(t/2) …` of an 8192 × 1 array: entry `n` ends at the
  distance from point `n` to its nearest neighbour (`rowK`). The column buffer is written back at every point, to
  entries `(t/2, 0, 4096·(t%2) …)` of a 16 × 1 × 8192 array: entry `(i, 0, m)` ends at the least squared distance
  from block `i` to point `m` (`colPart`). Every entry of either array is in exactly such a block, so the arrays
  end holding these functions everywhere.
-/
import proofs.«118879_j2370821948077_2_alg».proof.Proof.Pieces
import proofs.«118879_j2370821948077_2_alg».proof.Proof.Payload
import Idealize.ShloMosaic.Lib.Pipeline.Value

noncomputable section

namespace Cert.KernelIdeal.Arr

open Cert.KernelIdeal Cert.KernelIdeal.Gen Idealize.ShloMosaic Idealize.ShloMosaic.TcCoe Idealize.ShloMosaic.ValueIdx Idealize.SL.Sem Cert.Chamfer
open Idealize.ShloMosaic.Pipeline (Dat)

variable (m : (ℓ : Loc nD τ sig) → Buf (Elt Ideal) ℓ)

/-- The two clouds, as the program finds them. -/
abbrev X (c : Dev nD) : Fin 8192 → Fin 3 → EReal := pt (a := 8192) (m ((c : Thread nD τ).loc main_arg0))
abbrev Y (c : Dev nD) : Fin 8192 → Fin 3 → EReal := pt (a := 8192) (m ((c : Thread nD τ).loc main_arg1))

theorem N32 : cfg0.N = 32 := N_0

/-- Where each window's block sits at point `t`: block `t / 2` of the first cloud and of the row array, half `t % 2` of
    the second cloud, block `(t / 2, 0, t % 2)` of the column array. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = 0
    ∧ win0_3.index t (0 : Fin 3) = t.val / 2 ∧ win0_3.index t (1 : Fin 3) = 0 ∧ win0_3.index t (2 : Fin 3) = t.val % 2 :=
  (by decide +kernel : ∀ t : Fin grid0.N, _)

/-- The block of the first cloud, and the half of the second, that point `t` works on. -/
def bi (t : Fin cfg0.N) : Fin 16 := ⟨t.val / 2, by have := lt_of_lt_of_eq t.isLt N_0; omega⟩
def bj (t : Fin cfg0.N) : Fin 2 := ⟨t.val % 2, by omega⟩

/-! ## The input blocks are rows of the clouds -/

theorem iblk0_apply (c : Dev nD) (t : Fin cfg0.N) (p : Fin 512) (k : Fin 3) :
    (iblk m c 0 t : Vec Ideal S512x3 .f32) (ix2 p k) = m ((c : Thread nD τ).loc main_arg0) (ix2 (rowIx (bi t) p) k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 512 + 1 * p.val = t.val / 2 * 512 + p.val; rw [e0]; omega
  | ⟨1, _⟩ => show win0_0.index t (1 : Fin 2) * 3 + 1 * k.val = k.val; rw [e1]; omega

theorem iblk1_apply (c : Dev nD) (t : Fin cfg0.N) (q : Fin 4096) (k : Fin 3) :
    (iblk m c 1 t : Vec Ideal S4096x3 .f32) (ix2 q k) = m ((c : Thread nD τ).loc main_arg1) (ix2 (colIx (bj t) q) k) := by
  obtain ⟨-, -, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 4096 + 1 * q.val = t.val % 2 * 4096 + q.val; rw [e2]; omega
  | ⟨1, _⟩ => show win0_1.index t (1 : Fin 2) * 3 + 1 * k.val = k.val; rw [e3]; omega

theorem pt_iblk0 (c : Dev nD) (t : Fin cfg0.N) (p : Fin 512) :
    pt (a := 512) (iblk m c 0 t : Vec Ideal S512x3 .f32) p = X m c (rowIx (bi t) p) := funext fun k => iblk0_apply m c t p k
theorem pt_iblk1 (c : Dev nD) (t : Fin cfg0.N) (q : Fin 4096) :
    pt (a := 4096) (iblk m c 1 t : Vec Ideal S4096x3 .f32) q = Y m c (colIx (bj t) q) := funext fun k => iblk1_apply m c t q k

/-! ## What the two buffers hold after each point -/

/-- After an even point: the fold of this half's row minima into `+∞`, and this block's column minima. -/
theorem outs_even (c : Dev nD) (t : Fin cfg0.N) (h0 : t.val % 2 = 0) :
    outsAt0 m c t.val t.isLt = (k0_pay4 (iblk m c 0 t) (iblk m c 1 t) (k0_pay2 (F := Ideal)), k0_pay5 (iblk m c 0 t) (iblk m c 1 t)) := by
  have h1 : ¬ t.val % 2 = 1 := by omega
  rw [outsAt0_A m c t h0 h1]
  exact congrArg₂ Prod.mk
    (Pieces.out_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t))
    (Pieces.out_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t))

/-- After an odd point: the root of this half's row minima folded into what the point before left, and this block's column minima. -/
theorem outs_odd (c : Dev nD) (t : Fin cfg0.N) (h1 : t.val % 2 = 1) :
    outsAt0 m c t.val t.isLt
      = (k0_pay1 (k0_pay4 (iblk m c 0 t) (iblk m c 1 t) (outsAt0 m c (t.val - 1) (Nat.lt_of_le_of_lt (Nat.sub_le _ _) t.isLt)).1),
         k0_pay5 (iblk m c 0 t) (iblk m c 1 t)) := by
  have h0 : ¬ t.val % 2 = 0 := by omega
  rw [outsAt0_B m c t h0 h1]
  exact congrArg₂ Prod.mk
    (Pieces.out_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t)
      (outsAt0 m c (t.val - 1) (Nat.lt_of_le_of_lt (Nat.sub_le _ _) t.isLt)).1)
    (Pieces.out_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t)
      (outsAt0 m c (t.val - 1) (Nat.lt_of_le_of_lt (Nat.sub_le _ _) t.isLt)).1)

set_option maxRecDepth 200000 in
/-- The row buffer after an odd point: the distance from each point of the block to its nearest neighbour in the whole second cloud. -/
theorem row_val (c : Dev nD) (t : Fin cfg0.N) (h1 : t.val % 2 = 1) (p : Fin 512) (u : Fin 1) :
    (outsAt0 m c t.val t.isLt).1 (ix2 p u) = rowK (X m c) (Y m c) (rowIx (bi t) p) := by
  have hN : t.val < 32 := lt_of_lt_of_eq t.isLt N_0
  have hlt : t.val - 1 < cfg0.N := Nat.lt_of_le_of_lt (Nat.sub_le _ _) t.isLt
  have ht' : (⟨t.val - 1, hlt⟩ : Fin cfg0.N).val % 2 = 0 := by show (t.val - 1) % 2 = 0; omega
  have hb : bi ⟨t.val - 1, hlt⟩ = bi t := Fin.ext (by show (t.val - 1) / 2 = t.val / 2; omega)
  have hj' : bj ⟨t.val - 1, hlt⟩ = 0 := Fin.ext (by show (t.val - 1) % 2 = 0; omega)
  have hj : bj t = 1 := Fin.ext (by show t.val % 2 = 1; exact h1)
  rw [outs_odd m c t h1]
  show k0_pay1 (k0_pay4 (iblk m c 0 t) (iblk m c 1 t)
    (outsAt0 m c (⟨t.val - 1, hlt⟩ : Fin cfg0.N).val (⟨t.val - 1, hlt⟩ : Fin cfg0.N).isLt).1) (ix2 p u) = _
  rw [outs_even m c ⟨t.val - 1, hlt⟩ ht']
  refine (Pay.sweep_apply (iblk m c 0 ⟨t.val - 1, hlt⟩) (iblk m c 0 t) (iblk m c 1 ⟨t.val - 1, hlt⟩) (iblk m c 1 t) p u).trans ?_
  simp only [pt_iblk0, pt_iblk1, hb, hj', hj]
  rfl

/-- The column buffer after any point holds the column minima of the point's table. -/
theorem outs_snd (c : Dev nD) (t : Fin cfg0.N) :
    (outsAt0 m c t.val t.isLt).2 = k0_pay5 (iblk m c 0 t) (iblk m c 1 t) := by
  rcases Nat.mod_two_eq_zero_or_one t.val with h0 | h1
  · rw [outs_even m c t h0]
  · rw [outs_odd m c t h1]

set_option maxRecDepth 200000 in
/-- The column buffer after any point: the least squared distance from the point's block to each point of its half. -/
theorem col_val (c : Dev nD) (t : Fin cfg0.N) (u v : Fin 1) (q : Fin 4096) :
    (outsAt0 m c t.val t.isLt).2 (ix3 u v q) = colPart (X m c) (Y m c) (bi t) (colIx (bj t) q) := by
  rw [outs_snd m c t]
  refine (Pay.pay5_apply (iblk m c 0 t) (iblk m c 1 t) u v q).trans ?_
  simp only [pt_iblk0, pt_iblk1]
  rfl

/-! ## The row array -/

/-- Entry `(n, 0)`: the distance from point `n` of the first cloud to its nearest neighbour. -/
def rowArr (c : Dev nD) : S8192x1.Idx → EReal := fun i => rowK (X m c) (Y m c) (i 0)

/-- What an odd point writes back is its block of `rowArr`. -/
theorem flushed_row (c : Dev nD) (t : Fin cfg0.N) (hf : (cfg0.win 2).flush t = true) :
    (dats m 0 c).flushed 2 t = ((cfg0.win 2).blk t).view.read (Elt Ideal) (rowArr m c) := by
  have h1 : t.val % 2 = 1 := (flush0_2 t).mp hf
  obtain ⟨-, -, -, -, e4, e5, -⟩ := idx_facts t
  show (cfg0.win 2).cut (grid0.coords t) ((dats m 0 c).after 2 t) = _
  rw [after0_2]
  funext y
  obtain ⟨p, u, rfl⟩ : ∃ (p : Fin 512) (u : Fin 1), y = ix2 p u := ⟨y 0, y 1, eq_ix2 y⟩
  rw [View.read_apply]
  show (outsAt0 m c t.val t.isLt).1 (ix2 p u) = rowArr m c (((cfg0.win 2).blk t).view.emb (ix2 p u))
  rw [row_val m c t h1 p u]
  refine congrArg (rowK (X m c) (Y m c)) (Fin.ext ?_)
  show t.val / 2 * 512 + p.val = win0_2.index t (0 : Fin 2) * 512 + 1 * p.val
  rw [e4]; omega

/-- An entry of the row array is in point `t`'s block iff each coordinate is in the block's range. -/
theorem mem_blk_row (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_0).slice (win0_2.rect t)).set ↔ _
  rw [View.set_slice_whole, Rect.mem_set_unit]
  exact Iff.rfl

/-- Row `n` is written back by the odd point of block `n / 512`. -/
theorem cover_row (i : S8192x1.Idx) : ∃ t : Fin cfg0.N, (cfg0.win 2).flush t = true ∧ i ∈ ((cfg0.win 2).blk t).view.set := by
  have h0 : (i 0).val < 8192 := (i 0).isLt
  have h1 : (i 1).val < 1 := (i 1).isLt
  have hlt : 2 * ((i 0).val / 512) + 1 < cfg0.N := by rw [N32]; omega
  refine ⟨⟨2 * ((i 0).val / 512) + 1, hlt⟩, (flush0_2 _).mpr (by show (2 * ((i 0).val / 512) + 1) % 2 = 1; omega), ?_⟩
  rw [mem_blk_row]
  obtain ⟨-, -, -, -, e4, e5, -⟩ := idx_facts ⟨2 * ((i 0).val / 512) + 1, hlt⟩
  have e4' : win0_2.index ⟨2 * ((i 0).val / 512) + 1, hlt⟩ (0 : Fin 2) = (2 * ((i 0).val / 512) + 1) / 2 := e4
  intro a
  match a with
  | ⟨0, _⟩ =>
    show win0_2.index ⟨2 * ((i 0).val / 512) + 1, hlt⟩ (0 : Fin 2) * 512 ≤ (i 0).val
      ∧ (i 0).val < win0_2.index ⟨2 * ((i 0).val / 512) + 1, hlt⟩ (0 : Fin 2) * 512 + 512
    rw [e4']; omega
  | ⟨1, _⟩ =>
    show win0_2.index ⟨2 * ((i 0).val / 512) + 1, hlt⟩ (1 : Fin 2) * 1 ≤ (i 1).val
      ∧ (i 1).val < win0_2.index ⟨2 * ((i 0).val / 512) + 1, hlt⟩ (1 : Fin 2) * 1 + 1
    rw [e5]; omega

/-- The row array after the run. -/
theorem final_row (c : Dev nD) : (dats m 0 c).arrAt 2 cfg0.N = rowArr m c :=
  (dats m 0 c).arrAt_eq_of_cover 2 (rowArr m c) (flushed_row m c) cover_row

/-! ## The column array -/

/-- Entry `(i, 0, n)`: the least squared distance from block `i` of the first cloud to point `n` of the second. -/
def colArr (c : Dev nD) : S16x1x8192.Idx → EReal := fun i => colPart (X m c) (Y m c) (i 0) (i 2)

/-- What any point writes back is its block of `colArr`. -/
theorem flushed_col (c : Dev nD) (t : Fin cfg0.N) (hf : (cfg0.win 3).flush t = true) :
    (dats m 0 c).flushed 3 t = ((cfg0.win 3).blk t).view.read (Elt Ideal) (colArr m c) := by
  have hN : t.val < 32 := lt_of_lt_of_eq t.isLt N_0
  obtain ⟨-, -, -, -, -, -, e6, e7, e8⟩ := idx_facts t
  show (cfg0.win 3).cut (grid0.coords t) ((dats m 0 c).after 3 t) = _
  rw [after0_3]
  funext y
  obtain ⟨u, v, q, rfl⟩ : ∃ (u v : Fin 1) (q : Fin 4096), y = ix3 u v q := ⟨y 0, y 1, y 2, eq_ix3 y⟩
  rw [View.read_apply]
  show (outsAt0 m c t.val t.isLt).2 (ix3 u v q) = colArr m c (((cfg0.win 3).blk t).view.emb (ix3 u v q))
  rw [col_val m c t u v q]
  have hu : u.val = 0 := by omega
  refine congrArg₂ (colPart (X m c) (Y m c)) (Fin.ext ?_) (Fin.ext ?_)
  · show t.val / 2 = win0_3.index t (0 : Fin 3) * 1 + 1 * u.val
    rw [e6, hu]; omega
  · show t.val % 2 * 4096 + q.val = win0_3.index t (2 : Fin 3) * 4096 + 1 * q.val
    rw [e8]; omega

theorem mem_blk_col (t : Fin cfg0.N) (i : S16x1x8192.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Entry `(i, 0, n)` is written back by point `2 i + n / 4096`. -/
theorem cover_col (i : S16x1x8192.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 8192 := (i 2).isLt
  have hlt : 2 * (i 0).val + (i 2).val / 4096 < cfg0.N := by rw [N32]; omega
  refine ⟨⟨2 * (i 0).val + (i 2).val / 4096, hlt⟩, flush0_3 _, ?_⟩
  rw [mem_blk_col]
  obtain ⟨-, -, -, -, -, -, e6, e7, e8⟩ := idx_facts ⟨2 * (i 0).val + (i 2).val / 4096, hlt⟩
  have e6' : win0_3.index ⟨2 * (i 0).val + (i 2).val / 4096, hlt⟩ (0 : Fin 3) = (2 * (i 0).val + (i 2).val / 4096) / 2 := e6
  have e8' : win0_3.index ⟨2 * (i 0).val + (i 2).val / 4096, hlt⟩ (2 : Fin 3) = (2 * (i 0).val + (i 2).val / 4096) % 2 := e8
  intro a
  match a with
  | ⟨0, _⟩ =>
    show win0_3.index ⟨2 * (i 0).val + (i 2).val / 4096, hlt⟩ (0 : Fin 3) * 1 ≤ (i 0).val
      ∧ (i 0).val < win0_3.index ⟨2 * (i 0).val + (i 2).val / 4096, hlt⟩ (0 : Fin 3) * 1 + 1
    rw [e6']; omega
  | ⟨1, _⟩ =>
    show win0_3.index ⟨2 * (i 0).val + (i 2).val / 4096, hlt⟩ (1 : Fin 3) * 1 ≤ (i 1).val
      ∧ (i 1).val < win0_3.index ⟨2 * (i 0).val + (i 2).val / 4096, hlt⟩ (1 : Fin 3) * 1 + 1
    rw [e7]; omega
  | ⟨2, _⟩ =>
    show win0_3.index ⟨2 * (i 0).val + (i 2).val / 4096, hlt⟩ (2 : Fin 3) * 4096 ≤ (i 2).val
      ∧ (i 2).val < win0_3.index ⟨2 * (i 0).val + (i 2).val / 4096, hlt⟩ (2 : Fin 3) * 4096 + 4096
    rw [e8']; omega

/-- The column array after the run. -/
theorem final_col (c : Dev nD) : (dats m 0 c).arrAt 3 cfg0.N = colArr m c :=
  (dats m 0 c).arrAt_eq_of_cover 3 (colArr m c) (flushed_col m c) cover_col

end Cert.KernelIdeal.Arr

end
-- ==== Proof.Mean.lean ====
/-
  The last steps both programs share: the mean of 8192 row values plus the mean of 8192 column values, each mean a
  sum from zero divided by 8192. It is carried as one function of the two vectors and never opened: the two programs
  agree as soon as the vectors going in do.
-/
import Idealize.ShloMosaic.PureOps.Ideal.Laws

noncomputable section

namespace Cert.Chamfer

open Idealize.ShloMosaic

/-- `(0 + Σ r) / 8192 + (0 + Σ cl) / 8192`, as the host computes it. -/
def meanSum (h : (⟨1, ![8192]⟩ : Shape).ReducesTo [0] ⟨0, ![]⟩) (hu : 0 < (⟨0, ![]⟩ : Shape).numel)
    (r cl : FVec Ideal ⟨1, ![8192]⟩ .f32) : FVec Ideal ⟨0, ![]⟩ .f32 :=
  addf (Host.divf (Host.reduceAdd r (constant (F := Ideal) ⟨0, ![]⟩ .f32 0x00000000#32) h hu) (constant (F := Ideal) ⟨0, ![]⟩ .f32 0x46000000#32))
    (Host.divf (Host.reduceAdd cl (constant (F := Ideal) ⟨0, ![]⟩ .f32 0x00000000#32) h hu) (constant (F := Ideal) ⟨0, ![]⟩ .f32 0x46000000#32))

end Cert.Chamfer

end
-- ==== Proof.LibColumnCast.lean ====
/-
  A one-column matrix `[a, 1]` viewed as a vector `[a]`, read at an index: entry `i` is the column's entry `(i, 0)`.
  (The inverse of the cast `[a] → [a, 1]`; what dropping the kept axis of a row reduction does.)
-/
import Idealize.ShloMosaic.Lib.Pipeline.Value
import Idealize.ShloMosaic.Lib.ValueIdx

namespace Cert.LibColumnCast

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnCast
-- ==== Proof.Tail.lean ====
/-
  The kernel's program after the grid: from the two arrays to the result.

  The row array, an 8192 × 1 column, is read as a vector of 8192 distances. The column array's sixteen partial
  minima per point are folded together from `+∞`, clamped at zero and rooted: the distance from each point of the
  second cloud to its nearest neighbour (`colK`). The result is the shared mean-of-minima of these two vectors.
-/
import proofs.«118879_j2370821948077_2_alg».proof.Proof.Blocks
import proofs.«118879_j2370821948077_2_alg».proof.Proof.Mean
import proofs.«118879_j2370821948077_2_alg».proof.Proof.LibColumnCast
import Idealize.ShloMosaic.Lib.StableHlo.Run
import Idealize.ShloMosaic.Lib.ValueLayout
import Idealize.ShloMosaic.Lib.Tactic

noncomputable section

namespace Cert.KernelIdeal.Arr

open Cert.KernelIdeal Cert.KernelIdeal.Gen Idealize.ShloMosaic Idealize.ShloMosaic.TcCoe Idealize.ShloMosaic.ValueIdx Idealize.SL.Sem Cert.Chamfer
open Idealize.ShloMosaic.StableHlo Cert.LibColumnCast
open Idealize.ShloMosaic.Pipeline (Dat)

variable (m : (ℓ : Loc nD τ sig) → Buf (Elt Ideal) ℓ) (ρ : Dev nD → PrngReg)

/-- The two vectors the means are taken of. -/
def rowVec (c : Dev nD) : S8192.Idx → EReal := fun i => rowK (X m c) (Y m c) (i 0)
def colVec (c : Dev nD) : S8192.Idx → EReal := fun i => colK (X m c) (Y m c) (i 0)

/-- The row array's one column, as a vector. -/
theorem row_reshape (c : Dev nD) : shapeCast S8192 (rowArr m c) shapeCasts_S8192x1_S8192 = rowVec m c := by
  funext i
  obtain ⟨n, rfl⟩ : ∃ n : Fin 8192, i = ix1 n := ⟨i 0, eq_ix1 i⟩
  exact shapeCast_a1_a_apply (rowArr m c) shapeCasts_S8192x1_S8192 n

theorem hfold : S16x1x8192.Reduces [0] S1x8192 := by decide

set_option maxRecDepth 200000 in
/-- The sixteen partial minima of a column, folded from `+∞`. -/
theorem col_fold (c : Dev nD) (mm : Fin 8192) :
    Host.reduce (FloatOps.minimumf (F := Ideal) (φ := .f32)) (colArr m c) (constant (F := Ideal) S_ .f32 0x7F800000#32)
        reducesTo_S16x1x8192_S1x8192_d0 h_S_ (ix2 (0 : Fin 1) mm)
      = minOver fun i : Fin 16 => colPart (X m c) (Y m c) i mm := by
  refine (Host.reduce_eq_fold_single (FloatOps.minimumf (F := Ideal) (φ := .f32)) (colArr m c) (constant (F := Ideal) S_ .f32 0x7F800000#32)
    reducesTo_S16x1x8192_S1x8192_d0 hfold h_S_ (ix2 (0 : Fin 1) mm)).trans ?_
  have e : (colArr m c ∘ hfold.lift (ix2 (0 : Fin 1) mm)) = fun i : Fin 16 => colPart (X m c) (Y m c) i mm :=
    funext fun i => congrArg₂ (colPart (X m c) (Y m c)) (Fin.ext rfl) (Fin.ext rfl)
  rw [e]
  rfl

/-- A vector clamped at zero and rooted, at an entry. -/
theorem sqrt_clamp_apply (v : FVec Ideal S8192 .f32) (i : S8192.Idx) :
    Host.sqrt (maximumf v (broadcastInDim S8192 ![] bcast_S_S8192 (constant (F := Ideal) S_ .f32 0x00000000#32))) i
      = Ideal.sqrt (max (v i) zero) := rfl

set_option maxRecDepth 200000 in
/-- Folded, clamped at zero and rooted: the distance from each point of the second cloud to its nearest neighbour. -/
theorem col_tail (c : Dev nD) :
    Host.sqrt (maximumf (shapeCast S8192 (Host.reduce (FloatOps.minimumf (F := Ideal) (φ := .f32)) (colArr m c)
        (constant (F := Ideal) S_ .f32 0x7F800000#32) reducesTo_S16x1x8192_S1x8192_d0 h_S_) shapeCasts_S1x8192_S8192)
      (broadcastInDim S8192 ![] bcast_S_S8192 (constant (F := Ideal) S_ .f32 0x00000000#32))) = colVec m c := by
  funext i
  obtain ⟨mm, rfl⟩ : ∃ mm : Fin 8192, i = ix1 mm := ⟨i 0, eq_ix1 i⟩
  refine (sqrt_clamp_apply _ (ix1 mm)).trans ?_
  rw [shapeCast_1a_a_apply, col_fold]
  rfl

theorem mem_result : main_v11 ∈ Pipeline.restRefs sig (cfgs 0).spec := by decide

/-- The result after the grid and the seventeen host operations: the mean-of-minima of the two vectors. -/
theorem tail_eq (c : Dev nD) :
    Pipeline.afterTail₀ cfgs (dats m) 0 (V0 m) [hostOps1] c main_v11 = meanSum reducesTo_S8192_S_d0 h_S_ (rowVec m c) (colVec m c) := by
  have hr : Pipeline.withArrays (cfgs 0).spec c (V0 m c) (fun w => (dats m 0 c).arrAt w (cfgs 0).N) (Proc.devRef .tc main_v0_0) = rowArr m c :=
    (Pipeline.withArrays_arr spec0 launch0.win.arr_inj c _ _ 2).trans (final_row m c)
  have hc : Pipeline.withArrays (cfgs 0).spec c (V0 m c) (fun w => (dats m 0 c).arrAt w (cfgs 0).N) (Proc.devRef .tc main_v0_1) = colArr m c :=
    (Pipeline.withArrays_arr spec0 launch0.win.arr_inj c _ _ 3).trans (final_col m c)
  unfold Pipeline.afterTail₀
  show StableHlo.after hostOps1 _ (Proc.devRef .tc main_v11) = _
  after_results
  rw [hr, hc, ← row_reshape m c, ← col_tail m c]
  rfl

/-- The kernel's program, run: the result at the mean-of-minima, the two clouds unchanged. -/
theorem run : θ_run defs (onTc (τ := τ) (main (F := Ideal))) ⟨m, fun _ => 0, ρ⟩ fun r => ∀ c : Dev nD,
      r.2.mem ((c.tc : Thread nD τ).loc main_v11) = meanSum reducesTo_S8192_S_d0 h_S_ (rowVec m c) (colVec m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v11 mem_result).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arr

end
-- ==== Proof.Ref.lean ====
/-
  The reference program, read as the specification.

  It forms the whole 8192 × 8192 table of distances — entry `(n, m)` is the root of the clamped squared distance of
  point `n` of the first cloud and point `m` of the second: row sums of squares broadcast both ways, minus twice
  the matrix product with the transpose, clamped at zero, rooted — and takes the minimum of each row and of each
  column, folded from `+∞`: `rowR` and `colR`. Its result is the shared mean-of-minima of the two.
-/
import proofs.«118879_j2370821948077_2_alg».proof.Proof.Gen.ReferenceIdeal.Read
import proofs.«118879_j2370821948077_2_alg».proof.Proof.Spec
import proofs.«118879_j2370821948077_2_alg».proof.Proof.Mean
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx Cert.Chamfer

variable (x0 x1 : (⟨S8192x3, .f32⟩ : BufTy).Contents (Elt Ideal))

/-! ## Which entries of the clouds an entry of the table reads -/

theorem sq0_idx (n mm : Fin 8192) (k : Fin 3) : idx_main_v1 (idx_main_v6 (idx_main_v8 (ix2 n mm))) k = ix2 n k :=
  funext fun a => Fin.ext (by
    match a with
    | ⟨0, _⟩ => rfl
    | ⟨1, _⟩ => rfl)
theorem sq1_idx (n mm : Fin 8192) (k : Fin 3) : idx_main_v3 (idx_main_v7 (idx_main_v9 (ix2 n mm))) k = ix2 mm k :=
  funext fun a => Fin.ext (by
    match a with
    | ⟨0, _⟩ => rfl
    | ⟨1, _⟩ => rfl)
theorem dotl_idx (n mm : Fin 8192) (k : Fin 3) : lidx_main_v5 (ix2 n mm) k = ix2 n k :=
  funext fun a => Fin.ext (by
    match a with
    | ⟨0, _⟩ => rfl
    | ⟨1, _⟩ => rfl)
theorem dotr_idx (n mm : Fin 8192) (k : Fin 3) : idx_main_v4 (ridx_main_v5 (ix2 n mm) k) = ix2 mm k :=
  funext fun a => Fin.ext (by
    match a with
    | ⟨0, _⟩ => rfl
    | ⟨1, _⟩ => rfl)

/-- Entry `(n, m)` of the table of distances. -/
theorem dist_apply (n mm : Fin 8192) :
    val_main_v16 (F := Ideal) x0 x1 (ix2 n mm) = Ideal.sqrt (dist2 (pt x0 n) (pt x1 mm)) := by
  rw [val_main_v16_apply, val_main_v15_apply, val_main_v13_apply, val_main_v10_apply, val_main_v12_apply, val_main_v14_apply,
    val_main_cst_2_apply, val_main_v11_apply, val_main_cst_1_apply, val_main_v8_apply, val_main_v6_apply, val_main_v1_apply,
    val_main_v9_apply, val_main_v7_apply, val_main_v3_apply, val_main_v5_apply]
  simp only [val_main_v0_apply, val_main_v2_apply, val_main_v4_apply, val_main_cst_apply, val_main_cst_0_apply,
    sq0_idx, sq1_idx, dotl_idx, dotr_idx, Ideal.hostUnary_sqrt_def, Ideal.maximumf_def, Ideal.subf_def, Ideal.addf_def,
    Ideal.mulf_def, Ideal.ofBits_def, Ideal.ofBits_zero_f32, zero_add, dist2, pt]

/-! ## The two minima -/

theorem hrow : S8192x8192.Reduces [1] S8192 := by decide
theorem hcol : S8192x8192.Reduces [0] S8192 := by decide

set_option maxRecDepth 200000 in
/-- The minimum of row `n` of the table: the distance from point `n` to its nearest neighbour. -/
theorem row_apply (n : Fin 8192) : val_main_v17 (F := Ideal) x0 x1 (ix1 n) = rowR (pt x0) (pt x1) n := by
  unfold val_main_v17
  refine (Host.reduce_eq_fold_single (FloatOps.minimumf (F := Ideal) (φ := .f32)) (val_main_v16 (F := Ideal) x0 x1) (val_main_cst_3 (F := Ideal))
    reducesTo_S8192x8192_S8192_d1 hrow h_S_ (ix1 n)).trans ?_
  have e : (val_main_v16 (F := Ideal) x0 x1 ∘ hrow.lift (ix1 n)) = fun mm : Fin 8192 => Ideal.sqrt (dist2 (pt x0 n) (pt x1 mm)) :=
    funext fun mm => (congrArg (val_main_v16 (F := Ideal) x0 x1) (funext fun d => Fin.ext (by
      match d with
      | ⟨0, _⟩ => rfl
      | ⟨1, _⟩ => rfl))).trans (dist_apply x0 x1 n mm)
  rw [e]
  rfl

set_option maxRecDepth 200000 in
/-- The minimum of column `m` of the table: the distance from point `m` of the second cloud to its nearest neighbour. -/
theorem col_apply (mm : Fin 8192) : val_main_v20 (F := Ideal) x0 x1 (ix1 mm) = colR (pt x0) (pt x1) mm := by
  unfold val_main_v20
  refine (Host.reduce_eq_fold_single (FloatOps.minimumf (F := Ideal) (φ := .f32)) (val_main_v16 (F := Ideal) x0 x1) (val_main_cst_6 (F := Ideal))
    reducesTo_S8192x8192_S8192_d0 hcol h_S_ (ix1 mm)).trans ?_
  have e : (val_main_v16 (F := Ideal) x0 x1 ∘ hcol.lift (ix1 mm)) = fun n : Fin 8192 => Ideal.sqrt (dist2 (pt x0 n) (pt x1 mm)) :=
    funext fun n => (congrArg (val_main_v16 (F := Ideal) x0 x1) (funext fun d => Fin.ext (by
      match d with
      | ⟨0, _⟩ => rfl
      | ⟨1, _⟩ => rfl))).trans (dist_apply x0 x1 n mm)
  rw [e]
  rfl

/-- The two vectors of minima, whole. -/
theorem rows_eq : val_main_v17 (F := Ideal) x0 x1 = fun i : S8192.Idx => rowR (pt x0) (pt x1) (i 0) :=
  funext fun i => by rw [eq_ix1 i]; exact row_apply x0 x1 (i 0)
theorem cols_eq : val_main_v20 (F := Ideal) x0 x1 = fun i : S8192.Idx => colR (pt x0) (pt x1) (i 0) :=
  funext fun i => by rw [eq_ix1 i]; exact col_apply x0 x1 (i 0)

/-- The reference's result: the shared mean-of-minima of the two vectors. -/
theorem result_eq : val_main_v23 (F := Ideal) x0 x1
    = meanSum reducesTo_S8192_S_d0 h_S_ (fun i : S8192.Idx => rowR (pt x0) (pt x1) (i 0)) (fun i : S8192.Idx => colR (pt x0) (pt x1) (i 0)) := by
  rw [← rows_eq, ← cols_eq]
  rfl

end Cert.ReferenceIdeal.RefVal

end
-- ==== Proof.lean ====
/-
  The Chamfer distance of two clouds of 8192 points in three dimensions, computed two ways, is one extended real.

  Both programs start from the clamped squared distance `dist2 a b = max (|a|² + |b|² - 2·⟨a, b⟩) 0` of a point of the
  first cloud and a point of the second, and end with the mean over the first cloud of the distance to the nearest
  point of the second, plus the mean the other way round.

  The reference takes the root of every one of the 8192 × 8192 entries and then the minimum of each row and column.
  The kernel sweeps the table in 16 × 2 tiles of 512 × 4096: a row's minimum is a running minimum over the two tiles of
  its sweep, started at `+∞`, and its root is taken once, at the end of the sweep; a column's minimum is taken tile by
  tile, the sixteen partial minima are folded together afterwards, clamped at zero once more, and rooted.

  These agree entry by entry (Proof/Spec.lean): the root is monotone and fixes `+∞`, so it commutes with a minimum;
  the minimum over a cloud is the minimum of the minima over the parts of a partition of it; and a minimum of
  clamped numbers is already `≥ 0`. None of this needs an entry to be finite, so the precondition is not opened.
  What remains is to read each program's result as such an expression: the kernel's arithmetic at an entry
  (Proof/Payload.lean), what a grid point leaves in its buffers (Proof/Pieces.lean), the two result arrays as whole
  functions of the clouds (Proof/Blocks.lean), the host operations after the grid (Proof/Tail.lean), and the
  reference's table and its two reductions (Proof/Ref.lean). The closing mean-of-minima is the same text in both
  programs and is carried unopened (Proof/Mean.lean).
-/
import proofs.«118879_j2370821948077_2_alg».proof.Defs
import proofs.«118879_j2370821948077_2_alg».proof.Proof.Gen.Kernel
import proofs.«118879_j2370821948077_2_alg».proof.Proof.Gen.Kernel.Skeleton
import proofs.«118879_j2370821948077_2_alg».proof.Proof.Gen.Kernel.Launch
import proofs.«118879_j2370821948077_2_alg».proof.Proof.Gen.Kernel.Points
import proofs.«118879_j2370821948077_2_alg».proof.Proof.Gen.Kernel.Frame
import proofs.«118879_j2370821948077_2_alg».proof.Proof.Gen.KernelIdeal
import proofs.«118879_j2370821948077_2_alg».proof.Proof.Gen.KernelIdeal.Skeleton
import proofs.«118879_j2370821948077_2_alg».proof.Proof.Gen.KernelIdeal.Launch
import proofs.«118879_j2370821948077_2_alg».proof.Proof.Gen.KernelIdeal.Points
import proofs.«118879_j2370821948077_2_alg».proof.Proof.Gen.KernelIdeal.Frame
import proofs.«118879_j2370821948077_2_alg».proof.Proof.Gen.ReferenceIdeal
import proofs.«118879_j2370821948077_2_alg».proof.Proof.Gen.ReferenceIdeal.Run
import proofs.«118879_j2370821948077_2_alg».proof.Proof.Gen.ReferenceIdeal.Read
import proofs.«118879_j2370821948077_2_alg».proof.Proof.Gen.Pre_finite_inputs
import proofs.«118879_j2370821948077_2_alg».proof.Proof.Tail
import proofs.«118879_j2370821948077_2_alg».proof.Proof.Ref
import Idealize.ShloMosaic.Adequacy
import Idealize.ShloMosaic.Init

noncomputable section

namespace Cert.Proof

open Idealize.ShloMosaic Idealize.SL.Sem Cert.Chamfer

/-- Each program runs to the end without a fault and leaves the two clouds as it found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Over the extended reals the kernel ends at the mean-of-minima of `rowK` and `colK`, the reference at that of `rowR` and
    `colR`, of clouds that agree; and `rowK = rowR`, `colK = colR`. -/
theorem algebraic : Cert.algebraic_KernelIdeal_ReferenceIdeal := by
  intro m ρ m' ρ' _ hagree
  refine ⟨fun c => meanSum _ _ (Cert.KernelIdeal.Arr.rowVec m c) (Cert.KernelIdeal.Arr.colVec m c),
    Cert.KernelIdeal.Arr.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefVal.result_eq, (hagree c).1, (hagree c).2]
  have hr : Cert.KernelIdeal.Arr.rowVec m c
      = fun i => rowR (Cert.KernelIdeal.Arr.X m c) (Cert.KernelIdeal.Arr.Y m c) (i 0) := funext fun i => rowK_eq _ _ _
  have hc : Cert.KernelIdeal.Arr.colVec m c
      = fun i => colR (Cert.KernelIdeal.Arr.X m c) (Cert.KernelIdeal.Arr.Y m c) (i 0) := funext fun i => colK_eq _ _ _
  show _ = meanSum _ _ (Cert.KernelIdeal.Arr.rowVec m c) (Cert.KernelIdeal.Arr.colVec m c)
  rw [hr, hc]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
